-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S512x1024 : Shape := ⟨2, ![512, 1024]⟩
abbrev S512 : Shape := ⟨1, ![512]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S256x1024 .f32) (main_arg1 : FVec F S512x1024 .f32) (main_arg2 : FVec F S512 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S256x1024 : Shape := ⟨2, ![256, 1024]⟩
abbrev S512x1024 : Shape := ⟨2, ![512, 1024]⟩
abbrev S512 : Shape := ⟨1, ![512]⟩
abbrev S1x512 : Shape := ⟨2, ![1, 512]⟩
abbrev S256x512 : Shape := ⟨2, ![256, 512]⟩
abbrev S128x1024 : Shape := ⟨2, ![128, 1024]⟩
abbrev S1x128 : Shape := ⟨2, ![1, 128]⟩
abbrev S256x128 : Shape := ⟨2, ![256, 128]⟩
abbrev S128x128 : Shape := ⟨2, ![128, 128]⟩
abbrev S256x1x128 : Shape := ⟨3, ![256, 1, 128]⟩
abbrev S1x128x128 : Shape := ⟨3, ![1, 128, 128]⟩
abbrev S256x128x128 : Shape := ⟨3, ![256, 128, 128]⟩

abbrev nBuf : Space → Nat
  | .hbm => 5
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S512x1024, .f32⟩
  | .hbm, ⟨2, _⟩ => ⟨S512, .f32⟩
  | .hbm, ⟨3, _⟩ => ⟨S1x512, .f32⟩
  | .hbm, ⟨4, _⟩ => ⟨S256x512, .f32⟩
  | .local _ .vmem, ⟨0, _⟩ => ⟨S256x1024, .f32⟩
  | .local _ .vmem, ⟨1, _⟩ => ⟨S128x1024, .f32⟩
  | .local _ .vmem, ⟨2, _⟩ => ⟨S128x1024, .f32⟩
  | .local _ .vmem, ⟨3, _⟩ => ⟨S1x128, .f32⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1024_S256x128_0_0 : ∀ a, (![0, 0] : Fin 2 → Nat) a + S256x128.size a ≤ S256x1024.size a
  inb_S128x1024_S128x128_0_0 : ∀ a, (![0, 0] : Fin 2 → Nat) a + S128x128.size a ≤ S128x1024.size a
  h_S128x128 : 0 < S128x128.numel
  shapeCasts_S256x128_S256x1x128 : S256x128.ShapeCasts S256x1x128
  shapeCasts_S128x128_S1x128x128 : S128x128.ShapeCasts S1x128x128
  broadcasts_S256x1x128_S256x128x128 : S256x1x128.Broadcasts S256x128x128
  broadcasts_S1x128x128_S256x128x128 : S1x128x128.Broadcasts S256x128x128
  reduces_S256x128x128_S256x128 : S256x128x128.Reduces [2] S256x128
  inb_S256x1024_S256x128_0_128 : ∀ a, (![0, 128] : Fin 2 → Nat) a + S256x128.size a ≤ S256x1024.size a
  inb_S128x1024_S128x128_0_128 : ∀ a, (![0, 128] : Fin 2 → Nat) a + S128x128.size a ≤ S128x1024.size a
  inb_S256x1024_S256x128_0_256 : ∀ a, (![0, 256] : Fin 2 → Nat) a + S256x128.size a ≤ S256x1024.size a
  inb_S128x1024_S128x128_0_256 : ∀ a, (![0, 256] : Fin 2 → Nat) a + S128x128.size a ≤ S128x1024.size a
  inb_S256x1024_S256x128_0_384 : ∀ a, (![0, 384] : Fin 2 → Nat) a + S256x128.size a ≤ S256x1024.size a
  inb_S128x1024_S128x128_0_384 : ∀ a, (![0, 384] : Fin 2 → Nat) a + S128x128.size a ≤ S128x1024.size a
  inb_S256x1024_S256x128_0_512 : ∀ a, (![0, 512] : Fin 2 → Nat) a + S256x128.size a ≤ S256x1024.size a
  inb_S128x1024_S128x128_0_512 : ∀ a, (![0, 512] : Fin 2 → Nat) a + S128x128.size a ≤ S128x1024.size a
  inb_S256x1024_S256x128_0_640 : ∀ a, (![0, 640] : Fin 2 → Nat) a + S256x128.size a ≤ S256x1024.size a
  inb_S128x1024_S128x128_0_640 : ∀ a, (![0, 640] : Fin 2 → Nat) a + S128x128.size a ≤ S128x1024.size a
  inb_S256x1024_S256x128_0_768 : ∀ a, (![0, 768] : Fin 2 → Nat) a + S256x128.size a ≤ S256x1024.size a
  inb_S128x1024_S128x128_0_768 : ∀ a, (![0, 768] : Fin 2 → Nat) a + S128x128.size a ≤ S128x1024.size a
  inb_S256x1024_S256x128_0_896 : ∀ a, (![0, 896] : Fin 2 → Nat) a + S256x128.size a ≤ S256x1024.size a
  inb_S128x1024_S128x128_0_896 : ∀ a, (![0, 896] : Fin 2 → Nat) a + S128x128.size a ≤ S128x1024.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S512x1024.size a
  hwx0_1 : ∀ i : grid0.Coords, EltTy.bits .f32 = 32 ∨ (Rect.block (s := S512x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x512.size a
  hwx0_2 : ∀ i : grid0.Coords, EltTy.bits .f32 = 32 ∨ (Rect.block (s := S1x512) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x512.size a
  hwx0_3 : ∀ i : grid0.Coords, EltTy.bits .f32 = 32 ∨ (Rect.block (s := S256x512) S256x128.size (cc0_transform_3 i) (hinb0_3 i)).WholeWords (EltTy.packing .f32)

variable [Facts₀]

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x1024 : Shape := ⟨2, ![256, 1024]⟩
abbrev S512x1024 : Shape := ⟨2, ![512, 1024]⟩
abbrev S512 : Shape := ⟨1, ![512]⟩
abbrev S1024x512 : Shape := ⟨2, ![1024, 512]⟩
abbrev S256x1024x1 : Shape := ⟨3, ![256, 1024, 1]⟩
abbrev S1x1024x512 : Shape := ⟨3, ![1, 1024, 512]⟩
abbrev S256x1024x512 : Shape := ⟨3, ![256, 1024, 512]⟩
abbrev S_ : Shape := ⟨0, ![]⟩
abbrev S256x512 : Shape := ⟨2, ![256, 512]⟩
abbrev S1x512 : Shape := ⟨2, ![1, 512]⟩

abbrev nBuf : Space → Nat
  | .hbm => 17
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S512x1024, .f32⟩
  | .hbm, ⟨2, _⟩ => ⟨S512, .f32⟩
  | .hbm, ⟨3, _⟩ => ⟨S1024x512, .f32⟩
  | .hbm, ⟨4, _⟩ => ⟨S256x1024x1, .f32⟩
  | .hbm, ⟨5, _⟩ => ⟨S1x1024x512, .f32⟩
  | .hbm, ⟨6, _⟩ => ⟨S256x1024x512, .f32⟩
  | .hbm, ⟨7, _⟩ => ⟨S256x1024x512, .f32⟩
  | .hbm, ⟨8, _⟩ => ⟨S256x1024x512, .f32⟩
  | .hbm, ⟨9, _⟩ => ⟨S_, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S1x512, .f32⟩
  | .hbm, ⟨15, _⟩ => ⟨S256x512, .f32⟩
  | .hbm, ⟨16, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S256x1024_S256x1024x1_0_1 : S256x1024.BroadcastsInDim S256x1024x1 (![0, 1] : Fin 2 → Fin S256x1024x1.rank)
  bcast_S1024x512_S1x1024x512_1_2 : S1024x512.BroadcastsInDim S1x1024x512 (![1, 2] : Fin 2 → Fin S1x1024x512.rank)
  bcast_S256x1024x1_S256x1024x512_0_1_2 : S256x1024x1.BroadcastsInDim S256x1024x512 (![0, 1, 2] : Fin 3 → Fin S256x1024x512.rank)
  bcast_S1x1024x512_S256x1024x512_0_1_2 : S1x1024x512.BroadcastsInDim S256x1024x512 (![0, 1, 2] : Fin 3 → Fin S256x1024x512.rank)
  reducesTo_S256x1024x512_S256x512_d1 : S256x1024x512.ReducesTo [1] S256x512
  h_S_ : 0 < S_.numel
  bcast_S512_S1x512_1 : S512.BroadcastsInDim S1x512 (![1] : Fin 1 → Fin S1x512.rank)
  bcast_S1x512_S256x512_0_1 : S1x512.BroadcastsInDim S256x512 (![0, 1] : Fin 2 → Fin S256x512.rank)

variable [Facts₀]

class Facts : Prop extends Facts₀ where

variable [Facts]
-- ==== Proof.BodyTerm.lean ====
/-
  What one grid step leaves in its output block, as ONE pure term of the three input blocks.

  The body keeps a running maximum and a running minimum of the products x[b,k]·w[j,k] in two scratch buffers. Both
  start at a constant; then, for each of the eight column chunks of 128 reduction positions, the chunk's own maximum
  (minimum) over its 128 positions is taken from the same constant and merged into the running value. The output block is
  running maximum + running minimum + the bias row. Each scratch round-trip (store the whole buffer, load the whole
  buffer) reads back exactly what was stored, so the chain of stores and loads collapses to nested applications of one
  step function per extremum.
-/
import proofs.«180714_j60730837565842_1_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

/-- One chunk merged into the running maximum: `acc ⊔ max_kk v[b,kk]·w[j,kk]`, the chunk's maximum folded from the
    word `0xFF800000`. -/
def maxStep (v : Vec F S256x128 .f32) (w : Vec F S128x128 .f32) (acc : Vec F S256x128 .f32) : FVec F S256x128 .f32 :=
  maximumf acc (multiReduction .maximumf [2] S256x128 (k0_pay4 v w) 0xFF800000#32 reduces_S256x128x128_S256x128 (.inl rfl) rfl)

/-- One chunk merged into the running minimum, the chunk's minimum folded from the word `0x7F800000`. -/
def minStep (v : Vec F S256x128 .f32) (w : Vec F S128x128 .f32) (acc : Vec F S256x128 .f32) : FVec F S256x128 .f32 :=
  minimumf acc (multiReduction .minimumf [2] S256x128 (k0_pay4 v w) 0x7F800000#32 reduces_S256x128x128_S256x128 (.inl rfl) rfl)

/-! The stores' payloads, chunk by chunk, are these two steps (a cast of a [256,128] vector to its own shape is the
    identity; a value carried from one part of the body to the next is the same value). -/

theorem pay5_eq (v : Vec F S256x128 .f32) (w : Vec F S128x128 .f32) (acc : Vec F S256x128 .f32) :
    k0_pay5 v w acc = maxStep v w acc := by unfold k0_pay5 maxStep; simp only [shapeCast_self]
theorem pay6_eq (v : Vec F S256x128 .f32) (w : Vec F S128x128 .f32) (acc : Vec F S256x128 .f32) :
    k0_pay6 v w acc = minStep v w acc := by unfold k0_pay6 minStep; simp only [shapeCast_self]
theorem pay10_eq (v : Vec F S256x128 .f32) (w : Vec F S128x128 .f32) (acc : Vec F S256x128 .f32) :
    k0_pay10 (k0_pay7 v) (k0_pay8 w) acc = maxStep v w acc := by
  unfold k0_pay10 k0_pay9 k0_pay7 k0_pay8 maxStep k0_pay4; simp only [shapeCast_self]
theorem pay11_eq (v : Vec F S256x128 .f32) (w : Vec F S128x128 .f32) (acc : Vec F S256x128 .f32) :
    k0_pay11 (k0_pay7 v) (k0_pay8 w) acc = minStep v w acc := by
  unfold k0_pay11 k0_pay9 k0_pay7 k0_pay8 minStep k0_pay4; simp only [shapeCast_self]
theorem pay13_eq (v : Vec F S256x128 .f32) (w : Vec F S128x128 .f32) (acc : Vec F S256x128 .f32) :
    k0_pay13 v w acc = maxStep v w acc := by unfold k0_pay13 k0_pay12 maxStep k0_pay4; simp only [shapeCast_self]
theorem pay15_eq (v : Vec F S256x128 .f32) (w : Vec F S128x128 .f32) (acc : Vec F S256x128 .f32) :
    k0_pay15 (k0_pay14 v w acc) = minStep v w acc := by
  unfold k0_pay15 k0_pay14 k0_pay12 minStep k0_pay4; simp only [shapeCast_self]
theorem pay17_eq (v : Vec F S256x128 .f32) (w : Vec F S128x128 .f32) (acc : Vec F S256x128 .f32) :
    k0_pay17 v w acc = maxStep v w acc := by unfold k0_pay17 k0_pay16 maxStep k0_pay4; simp only [shapeCast_self]
theorem pay18_eq (v : Vec F S256x128 .f32) (w : Vec F S128x128 .f32) (acc : Vec F S256x128 .f32) :
    k0_pay18 v w acc = minStep v w acc := by unfold k0_pay18 k0_pay16 minStep k0_pay4; simp only [shapeCast_self]
theorem pay22_eq (v : Vec F S256x128 .f32) (w : Vec F S128x128 .f32) (acc : Vec F S256x128 .f32) :
    k0_pay22 (k0_pay21 v w acc) = maxStep v w acc := by
  unfold k0_pay22 k0_pay21 k0_pay19 maxStep k0_pay4; simp only [shapeCast_self]
theorem pay23_eq (v : Vec F S256x128 .f32) (w : Vec F S128x128 .f32) (acc : Vec F S256x128 .f32) :
    k0_pay23 (k0_pay20 v w) acc = minStep v w acc := by
  unfold k0_pay23 k0_pay20 k0_pay19 minStep k0_pay4; simp only [shapeCast_self]
theorem pay25_eq (v : Vec F S256x128 .f32) (w : Vec F S128x128 .f32) (acc : Vec F S256x128 .f32) :
    k0_pay25 v w acc = maxStep v w acc := by unfold k0_pay25 k0_pay24 maxStep k0_pay4; simp only [shapeCast_self]
theorem pay26_eq (v : Vec F S256x128 .f32) (w : Vec F S128x128 .f32) (acc : Vec F S256x128 .f32) :
    k0_pay26 v w acc = minStep v w acc := by unfold k0_pay26 k0_pay24 minStep k0_pay4; simp only [shapeCast_self]
theorem pay29_eq (v : Vec F S256x128 .f32) (w : Vec F S128x128 .f32) (acc : Vec F S256x128 .f32) :
    k0_pay29 (k0_pay28 v w) acc = maxStep v w acc := by
  unfold k0_pay29 k0_pay28 k0_pay27 maxStep k0_pay4; simp only [shapeCast_self]
theorem pay30_eq (v : Vec F S256x128 .f32) (w : Vec F S128x128 .f32) (acc : Vec F S256x128 .f32) :
    k0_pay30 (k0_pay27 v w) acc = minStep v w acc := by
  unfold k0_pay30 k0_pay27 minStep k0_pay4; simp only [shapeCast_self]
theorem pay32_eq (v : Vec F S256x128 .f32) (w : Vec F S128x128 .f32) (acc : Vec F S256x128 .f32) :
    k0_pay32 v w acc = maxStep v w acc := by unfold k0_pay32 k0_pay31 maxStep k0_pay4; simp only [shapeCast_self]
theorem pay33_eq (v : Vec F S256x128 .f32) (w : Vec F S128x128 .f32) (acc : Vec F S256x128 .f32) :
    k0_pay33 v w acc = minStep v w acc := by unfold k0_pay33 k0_pay31 minStep k0_pay4; simp only [shapeCast_self]
theorem pay2_eq : k0_pay2 (F := F) = broadcast S256x128 (Scalar.ofBits .f32 0xFF800000#32) := by
  unfold k0_pay2; simp only [shapeCast_self]
theorem pay3_eq : k0_pay3 (F := F) = broadcast S256x128 (Scalar.ofBits .f32 0x7F800000#32) := by
  unfold k0_pay3; simp only [shapeCast_self]

/-! ## The two running extrema after the eight chunks -/

/-- The running maximum after the eight column chunks (columns 0–127 merged first, 896–1023 last), from the splat of
    the word `0xFF800000`. -/
def maxAcc (x0 : Vec F S256x1024 .f32) (x1 : Vec F S128x1024 .f32) : FVec F S256x128 .f32 :=
  (maxStep (View.ld x0 (Rect.unit ![0, 896] S256x128.size inb_S256x1024_S256x128_0_896)) (View.ld x1 (Rect.unit ![0, 896] S128x128.size inb_S128x1024_S128x128_0_896))
      (maxStep (View.ld x0 (Rect.unit ![0, 768] S256x128.size inb_S256x1024_S256x128_0_768)) (View.ld x1 (Rect.unit ![0, 768] S128x128.size inb_S128x1024_S128x128_0_768))
      (maxStep (View.ld x0 (Rect.unit ![0, 640] S256x128.size inb_S256x1024_S256x128_0_640)) (View.ld x1 (Rect.unit ![0, 640] S128x128.size inb_S128x1024_S128x128_0_640))
      (maxStep (View.ld x0 (Rect.unit ![0, 512] S256x128.size inb_S256x1024_S256x128_0_512)) (View.ld x1 (Rect.unit ![0, 512] S128x128.size inb_S128x1024_S128x128_0_512))
      (maxStep (View.ld x0 (Rect.unit ![0, 384] S256x128.size inb_S256x1024_S256x128_0_384)) (View.ld x1 (Rect.unit ![0, 384] S128x128.size inb_S128x1024_S128x128_0_384))
      (maxStep (View.ld x0 (Rect.unit ![0, 256] S256x128.size inb_S256x1024_S256x128_0_256)) (View.ld x1 (Rect.unit ![0, 256] S128x128.size inb_S128x1024_S128x128_0_256))
      (maxStep (View.ld x0 (Rect.unit ![0, 128] S256x128.size inb_S256x1024_S256x128_0_128)) (View.ld x1 (Rect.unit ![0, 128] S128x128.size inb_S128x1024_S128x128_0_128))
      (maxStep (View.ld x0 (Rect.unit ![0, 0] S256x128.size inb_S256x1024_S256x128_0_0)) (View.ld x1 (Rect.unit ![0, 0] S128x128.size inb_S128x1024_S128x128_0_0))
      (broadcast S256x128 (Scalar.ofBits .f32 0xFF800000#32))))))))))

/-- The running minimum after the eight column chunks, from the splat of the word `0x7F800000`. -/
def minAcc (x0 : Vec F S256x1024 .f32) (x1 : Vec F S128x1024 .f32) : FVec F S256x128 .f32 :=
  (minStep (View.ld x0 (Rect.unit ![0, 896] S256x128.size inb_S256x1024_S256x128_0_896)) (View.ld x1 (Rect.unit ![0, 896] S128x128.size inb_S128x1024_S128x128_0_896))
      (minStep (View.ld x0 (Rect.unit ![0, 768] S256x128.size inb_S256x1024_S256x128_0_768)) (View.ld x1 (Rect.unit ![0, 768] S128x128.size inb_S128x1024_S128x128_0_768))
      (minStep (View.ld x0 (Rect.unit ![0, 640] S256x128.size inb_S256x1024_S256x128_0_640)) (View.ld x1 (Rect.unit ![0, 640] S128x128.size inb_S128x1024_S128x128_0_640))
      (minStep (View.ld x0 (Rect.unit ![0, 512] S256x128.size inb_S256x1024_S256x128_0_512)) (View.ld x1 (Rect.unit ![0, 512] S128x128.size inb_S128x1024_S128x128_0_512))
      (minStep (View.ld x0 (Rect.unit ![0, 384] S256x128.size inb_S256x1024_S256x128_0_384)) (View.ld x1 (Rect.unit ![0, 384] S128x128.size inb_S128x1024_S128x128_0_384))
      (minStep (View.ld x0 (Rect.unit ![0, 256] S256x128.size inb_S256x1024_S256x128_0_256)) (View.ld x1 (Rect.unit ![0, 256] S128x128.size inb_S128x1024_S128x128_0_256))
      (minStep (View.ld x0 (Rect.unit ![0, 128] S256x128.size inb_S256x1024_S256x128_0_128)) (View.ld x1 (Rect.unit ![0, 128] S128x128.size inb_S128x1024_S128x128_0_128))
      (minStep (View.ld x0 (Rect.unit ![0, 0] S256x128.size inb_S256x1024_S256x128_0_0)) (View.ld x1 (Rect.unit ![0, 0] S128x128.size inb_S128x1024_S128x128_0_0))
      (broadcast S256x128 (Scalar.ofBits .f32 0x7F800000#32))))))))))

/-- The whole-shape offsets of a [256,128] or [1,128] access are zero on both axes. -/
theorem zero_offsets : (![0, 0] : Fin 2 → Nat) = fun _ => 0 := by
  funext a; match a with | ⟨0, _⟩ => rfl | ⟨1, _⟩ => rfl

/-- WHAT THE BODY LEAVES in its output block: (running maximum + running minimum) + the bias row, of the three input
    blocks — every scratch round-trip reads back the last whole store. -/
theorem out_eq (c : Dev nD) (i : grid0.Coords) (arg1 : Memref sig .tc .vmem S256x1024 .f32) (harg1 : arg1.IsWhole) (arg2 : Memref sig .tc .vmem S128x1024 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole)
    (x0 : Vec F S256x1024 .f32) (x1 : Vec F S128x1024 .f32) (x2 : Vec F S1x128 .f32) :
    out0_A_3 c i arg1 harg1 arg2 harg2 arg3 harg3 arg4 harg4 arg5 harg5 arg6 harg6 x0 x1 x2 = k0_pay1 (maxAcc x0 x1) (minAcc x0 x1) x2 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  rw [View.canon_unit_zero zero_offsets]
  simp only [View.readCov_cons_toLoadRect, View.readAt_eq_ld, harg1.read_unread, harg2.read_unread, harg3.read_unread,
    View.ld_unit_zero (S := S1x128) zero_offsets, pay2_eq, pay3_eq, pay5_eq, pay6_eq, pay10_eq, pay11_eq, pay13_eq, pay15_eq,
    pay17_eq, pay18_eq, pay22_eq, pay23_eq, pay25_eq, pay26_eq, pay29_eq, pay30_eq, pay32_eq, pay33_eq]
  rfl

end Cert.KernelIdeal.Body

end
-- ==== Proof.LibChunkFold.lean ====
/-
  Extrema accumulated chunk by chunk.

  In a linear order take a function `g` on the naturals, a chunk length `K` and a starting value `c`. The maximum of
  chunk `j` is the fold of `max` from `c` over the positions `j*K, …, j*K + K - 1`; the running maximum after `J`
  chunks starts at `c` and after each chunk keeps the larger of the running value and that chunk's maximum. It equals the
  fold of `max` from `c` over all `J*K` positions at once: each is the least element above `c` and above every `g k`,
  `k < J*K`, and in a linear order an element is determined by the set of its upper bounds. Dually for minima and lower
  bounds. The starting value is arbitrary — it need not be a least or greatest element — because `max` and `min` are
  idempotent: meeting `c` once per chunk instead of once changes nothing.
-/
import Mathlib.Data.Finset.Fold
import Mathlib.Data.Fintype.Basic

namespace ChunkFold

variable {α : Type*} [LinearOrder α]

/-- A property holds at every position below `J*K` iff it holds at every position `kk < K` of every chunk `j < J`:
    position `k` is position `k % K` of chunk `k / K`. -/
theorem forall_lt_mul_iff (K J : ℕ) (P : ℕ → Prop) :
    (∀ k < J * K, P k) ↔ ∀ j < J, ∀ kk < K, P (j * K + kk) := by
  constructor
  · intro h j hj kk hk
    apply h
    calc j * K + kk < j * K + K := Nat.add_lt_add_left hk _
      _ = (j + 1) * K := (Nat.succ_mul j K).symm
      _ ≤ J * K := Nat.mul_le_mul_right K hj
  · intro h k hk
    have hK : 0 < K := Nat.pos_of_ne_zero (by rintro rfl; simp at hk)
    have := h (k / K) (Nat.div_lt_of_lt_mul (by rwa [Nat.mul_comm] at hk)) (k % K) (Nat.mod_lt k hK)
    rwa [Nat.div_add_mod'] at this

/-! ## Maxima -/

/-- The maximum, from `c`, of `g` over the `K` positions of chunk `j`. -/
def chunkMax (c : α) (g : ℕ → α) (K j : ℕ) : α :=
  (Finset.univ : Finset (Fin K)).fold max c fun kk => g (j * K + kk.val)

/-- The running maximum after `J` chunks: `c` before any chunk, then the larger of the running value and the next
    chunk's maximum. -/
def runMax (c : α) (g : ℕ → α) (K : ℕ) : ℕ → α
  | 0 => c
  | J + 1 => max (runMax c g K J) (chunkMax c g K J)

/-- The upper bounds of the fold of `max` from `c` over the first `N` positions: those of `c` and of every `g k`. -/
theorem fold_max_le_iff (c : α) (g : ℕ → α) (N : ℕ) (y : α) :
    ((Finset.univ : Finset (Fin N)).fold max c fun k => g k.val) ≤ y ↔ c ≤ y ∧ ∀ k < N, g k ≤ y := by
  rw [Finset.fold_max_le]
  constructor
  · rintro ⟨h0, h⟩; exact ⟨h0, fun k hk => h ⟨k, hk⟩ (Finset.mem_univ _)⟩
  · rintro ⟨h0, h⟩; exact ⟨h0, fun k _ => h k.val k.isLt⟩

theorem chunkMax_le_iff (c : α) (g : ℕ → α) (K j : ℕ) (y : α) :
    chunkMax c g K j ≤ y ↔ c ≤ y ∧ ∀ kk < K, g (j * K + kk) ≤ y :=
  fold_max_le_iff c (fun kk => g (j * K + kk)) K y

/-- The upper bounds of the running maximum after `J` chunks: those of `c` and of `g` at every position of every chunk. -/
theorem runMax_le_iff (c : α) (g : ℕ → α) (K : ℕ) (y : α) :
    ∀ J, runMax c g K J ≤ y ↔ c ≤ y ∧ ∀ j < J, ∀ kk < K, g (j * K + kk) ≤ y
  | 0 => by simp [runMax]
  | J + 1 => by
    rw [runMax, max_le_iff, runMax_le_iff c g K y J, chunkMax_le_iff]
    constructor
    · rintro ⟨⟨h0, h⟩, -, hJ⟩
      refine ⟨h0, fun j hj => ?_⟩
      rcases Nat.lt_succ_iff_lt_or_eq.mp hj with hlt | rfl
      · exact h j hlt
      · exact hJ
    · rintro ⟨h0, h⟩
      exact ⟨⟨h0, fun j hj => h j (Nat.lt_succ_of_lt hj)⟩, h0, h J (Nat.lt_succ_self J)⟩

/-- The running maximum over `J` chunks of length `K` is the maximum over all `J*K` positions at once. -/
theorem runMax_eq_fold (c : α) (g : ℕ → α) (K J : ℕ) :
    runMax c g K J = (Finset.univ : Finset (Fin (J * K))).fold max c fun k => g k.val :=
  eq_of_forall_ge_iff fun y => by rw [runMax_le_iff, fold_max_le_iff, forall_lt_mul_iff]

/-- The same with the total length named: `J` chunks of length `K` fill `N = J*K` positions. -/
theorem runMax_eq_fold_of_eq (c : α) (g : ℕ → α) (K J N : ℕ) (hN : J * K = N) :
    runMax c g K J = (Finset.univ : Finset (Fin N)).fold max c fun k => g k.val := by
  subst hN; exact runMax_eq_fold c g K J

/-! ## Minima -/

/-- The minimum, from `c`, of `g` over the `K` positions of chunk `j`. -/
def chunkMin (c : α) (g : ℕ → α) (K j : ℕ) : α :=
  (Finset.univ : Finset (Fin K)).fold min c fun kk => g (j * K + kk.val)

/-- The running minimum after `J` chunks. -/
def runMin (c : α) (g : ℕ → α) (K : ℕ) : ℕ → α
  | 0 => c
  | J + 1 => min (runMin c g K J) (chunkMin c g K J)

/-- The lower bounds of the fold of `min` from `c` over the first `N` positions: those of `c` and of every `g k`. -/
theorem le_fold_min_iff (c : α) (g : ℕ → α) (N : ℕ) (y : α) :
    y ≤ ((Finset.univ : Finset (Fin N)).fold min c fun k => g k.val) ↔ y ≤ c ∧ ∀ k < N, y ≤ g k := by
  rw [Finset.le_fold_min]
  constructor
  · rintro ⟨h0, h⟩; exact ⟨h0, fun k hk => h ⟨k, hk⟩ (Finset.mem_univ _)⟩
  · rintro ⟨h0, h⟩; exact ⟨h0, fun k _ => h k.val k.isLt⟩

theorem le_chunkMin_iff (c : α) (g : ℕ → α) (K j : ℕ) (y : α) :
    y ≤ chunkMin c g K j ↔ y ≤ c ∧ ∀ kk < K, y ≤ g (j * K + kk) :=
  le_fold_min_iff c (fun kk => g (j * K + kk)) K y

/-- The lower bounds of the running minimum after `J` chunks. -/
theorem le_runMin_iff (c : α) (g : ℕ → α) (K : ℕ) (y : α) :
    ∀ J, y ≤ runMin c g K J ↔ y ≤ c ∧ ∀ j < J, ∀ kk < K, y ≤ g (j * K + kk)
  | 0 => by simp [runMin]
  | J + 1 => by
    rw [runMin, le_min_iff, le_runMin_iff c g K y J, le_chunkMin_iff]
    constructor
    · rintro ⟨⟨h0, h⟩, -, hJ⟩
      refine ⟨h0, fun j hj => ?_⟩
      rcases Nat.lt_succ_iff_lt_or_eq.mp hj with hlt | rfl
      · exact h j hlt
      · exact hJ
    · rintro ⟨h0, h⟩
      exact ⟨⟨h0, fun j hj => h j (Nat.lt_succ_of_lt hj)⟩, h0, h J (Nat.lt_succ_self J)⟩

/-- The running minimum over `J` chunks of length `K` is the minimum over all `J*K` positions at once. -/
theorem runMin_eq_fold (c : α) (g : ℕ → α) (K J : ℕ) :
    runMin c g K J = (Finset.univ : Finset (Fin (J * K))).fold min c fun k => g k.val :=
  eq_of_forall_le_iff fun y => by rw [le_runMin_iff, le_fold_min_iff, forall_lt_mul_iff]

/-- The same with the total length named. -/
theorem runMin_eq_fold_of_eq (c : α) (g : ℕ → α) (K J N : ℕ) (hN : J * K = N) :
    runMin c g K J = (Finset.univ : Finset (Fin N)).fold min c fun k => g k.val := by
  subst hN; exact runMin_eq_fold c g K J

end ChunkFold
-- ==== Proof.Spec.lean ====
/-
  The function both programs compute, index by index on the extended reals.

  For x : [256, 1024], w : [512, 1024] and bias : [512], entry (b, n) of the result is

      (max over k of x[b,k]·w[n,k])  +  (min over k of x[b,k]·w[n,k])  +  bias[n],

  the maximum folded from the value of the word `0xFF800000` and the minimum from the value of the word `0x7F800000`
  (both programs carry the same two words, so their values are never opened), the two sums grouped as written.
-/
import Idealize.ShloMosaic.PureOps.Ideal.Laws
import Idealize.ShloMosaic.Lib.ValueIdx

noncomputable section

namespace Cert.Spec

open Idealize.ShloMosaic Idealize.ShloMosaic.ValueIdx

/-- The value the maxima are folded from: the word `0xFF800000` read as an extended real. -/
abbrev cmax : EReal := FloatOps.ofBits (F := Ideal) .f32 0xFF800000#32
/-- The value the minima are folded from: the word `0x7F800000` read as an extended real. -/
abbrev cmin : EReal := FloatOps.ofBits (F := Ideal) .f32 0x7F800000#32

/-- One entry from one row of x, one row of w and one bias entry: (max_k xr k · wr k + min_k xr k · wr k) + β. -/
def outRow (xr wr : Fin 1024 → EReal) (β : EReal) : EReal :=
  ((Finset.univ : Finset (Fin 1024)).fold max cmax (fun k => xr k * wr k)
    + (Finset.univ : Finset (Fin 1024)).fold min cmin (fun k => xr k * wr k)) + β

/-- The whole result: entry (b, n) from row b of x, row n of w and bias[n]. -/
def G (x : (⟨2, ![256, 1024]⟩ : Shape).Idx → EReal) (w : (⟨2, ![512, 1024]⟩ : Shape).Idx → EReal)
    (bias : (⟨1, ![512]⟩ : Shape).Idx → EReal) : (⟨2, ![256, 512]⟩ : Shape).Idx → EReal :=
  fun i => outRow (fun k => x (ix2 ⟨(i 0).val, idx2_lt0 i⟩ k)) (fun k => w (ix2 ⟨(i 1).val, idx2_lt1 i⟩ k))
    (bias (ix1 ⟨(i 1).val, idx2_lt1 i⟩))

theorem G_ix2 (x : (⟨2, ![256, 1024]⟩ : Shape).Idx → EReal) (w : (⟨2, ![512, 1024]⟩ : Shape).Idx → EReal)
    (bias : (⟨1, ![512]⟩ : Shape).Idx → EReal) (b : Fin 256) (n : Fin 512) :
    G x w bias (ix2 b n) = outRow (fun k => x (ix2 b k)) (fun k => w (ix2 n k)) (bias (ix1 n)) := rfl

end Cert.Spec

end
-- ==== Proof.StepAtIndex.lean ====
/-
  The two step functions and the two running extrema read at an index, on the extended reals.

  For a row `b` of the x block and a row `j` of the w block write g(k) = x[b,k] · w[j,k], k < 1024. A chunk's product array
  at (b, j, kk) is v[b,kk] · w[j,kk]; its maximum over kk, folded from the constant, merged into the running value, is one
  step of the running maximum of g over chunks of 128 positions; eight steps give the running maximum after eight chunks.
-/
import proofs.«180714_j60730837565842_1_alg».proof.Proof.BodyTerm
import proofs.«180714_j60730837565842_1_alg».proof.Proof.LibChunkFold
import proofs.«180714_j60730837565842_1_alg».proof.Proof.Spec
import Idealize.ShloMosaic.PureOps.Ideal.Laws
import Idealize.ShloMosaic.Lib.ValueIdx
import Idealize.ShloMosaic.Lib.ValueLayout

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Cert.Spec

/-- Columns `o, …, o+K-1` of an [R, C] array, read at (b, kk): the array at (b, o + kk). -/
theorem ld_cols {Val : EltTy → Type} {e : EltTy} {R C K : ℕ} (X : (⟨2, ![R, C]⟩ : Shape).Idx → Val e) (o : ℕ)
    (inb : ∀ a, (![0, o] : Fin 2 → ℕ) a + (⟨2, ![R, K]⟩ : Shape).size a ≤ (⟨2, ![R, C]⟩ : Shape).size a)
    (b : Fin R) (kk : Fin K) (h : o + kk.val < C) :
    View.ld X (Rect.unit ![0, o] (⟨2, ![R, K]⟩ : Shape).size inb) (ix2 b kk) = X (ix2 b ⟨o + kk.val, h⟩) := by
  refine congrArg X (funext fun a => Fin.ext ?_)
  match a with
  | ⟨0, _⟩ => show 0 + 1 * b.val = b.val; omega
  | ⟨1, _⟩ => show o + 1 * kk.val = o + kk.val; omega

/-- A chunk's product array at (b, j, kk): row `b` of the x chunk times row `j` of the w chunk, position `kk`. -/
theorem prod_apply (v : Vec Ideal S256x128 .f32) (w : Vec Ideal S128x128 .f32) (b : Fin 256) (j kk : Fin 128) :
    k0_pay4 v w (ix3 b j kk) = v (ix2 b kk) * w (ix2 j kk) := by
  unfold k0_pay4
  have e1 : broadcastTo S256x128x128 (shapeCast S256x1x128 v shapeCasts_S256x128_S256x1x128) broadcasts_S256x1x128_S256x128x128 (ix3 b j kk)
      = v (ix2 b kk) :=
    (broadcastTo_apply _ broadcasts_S256x1x128_S256x128x128 (ix3 b j kk) (ix3 b (0 : Fin 1) kk) (fun a => match a with
      | ⟨0, _⟩ => by show b.val = if (256 : ℕ) = 1 then 0 else b.val; rw [if_neg (by decide)]
      | ⟨1, _⟩ => by show 0 = if (1 : ℕ) = 1 then 0 else j.val; rw [if_pos rfl]
      | ⟨2, _⟩ => by show kk.val = if (128 : ℕ) = 1 then 0 else kk.val; rw [if_neg (by decide)])).trans
    (shapeCast_apply v shapeCasts_S256x128_S256x1x128 (ix3 b (0 : Fin 1) kk) (ix2 b kk) (by
      rw [Shape.rowMajor_val_two, Shape.rowMajor_val_three]
      show b.val * 128 + kk.val = (b.val * 1 + 0) * 128 + kk.val
      omega))
  have e2 : broadcastTo S256x128x128 (shapeCast S1x128x128 w shapeCasts_S128x128_S1x128x128) broadcasts_S1x128x128_S256x128x128 (ix3 b j kk)
      = w (ix2 j kk) :=
    (broadcastTo_apply _ broadcasts_S1x128x128_S256x128x128 (ix3 b j kk) (ix3 (0 : Fin 1) j kk) (fun a => match a with
      | ⟨0, _⟩ => by show 0 = if (1 : ℕ) = 1 then 0 else b.val; rw [if_pos rfl]
      | ⟨1, _⟩ => by show j.val = if (128 : ℕ) = 1 then 0 else j.val; rw [if_neg (by decide)]
      | ⟨2, _⟩ => by show kk.val = if (128 : ℕ) = 1 then 0 else kk.val; rw [if_neg (by decide)])).trans
    (shapeCast_ab_1ab_apply w shapeCasts_S128x128_S1x128x128 (0 : Fin 1) j kk)
  show _ * _ = _
  rw [e1, e2]

/-- The index of the product array that reduces to (b, j) at position `kk` of the reduced axis is (b, j, kk). -/
theorem lift_eq (b : Fin 256) (j kk : Fin 128) :
    reduces_S256x128x128_S256x128.lift (ix2 b j) kk = ix3 b j kk :=
  funext fun a => Fin.ext (match a with | ⟨0, _⟩ => rfl | ⟨1, _⟩ => rfl | ⟨2, _⟩ => rfl)

/-- A `multi_reduction <minimumf>` over one axis at an index: the fold of `min` from the accumulator's value over that
    axis's coordinates (a `<maximumf>` reduction reads the same way with `max`). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The row product g(k) = x[b,k] · w[j,k] for k < 1024, as a function on all naturals (0 beyond the row, where nothing
    reads it). -/
def rowProd (x0 : Vec Ideal S256x1024 .f32) (x1 : Vec Ideal S128x1024 .f32) (b : Fin 256) (j : Fin 128) (k : ℕ) : EReal :=
  if h : k < 1024 then x0 (ix2 b ⟨k, h⟩) * x1 (ix2 j ⟨k, h⟩) else 0

/-- One step of the running maximum at (b, j): the running value there merged with the chunk's maximum of
    v[b,kk]·w[j,kk] over its 128 positions, folded from the constant. -/
theorem maxStep_apply (v : Vec Ideal S256x128 .f32) (w : Vec Ideal S128x128 .f32) (acc : Vec Ideal S256x128 .f32)
    (b : Fin 256) (j : Fin 128) :
    maxStep v w acc (ix2 b j)
      = max (acc (ix2 b j)) ((Finset.univ : Finset (Fin 128)).fold max cmax fun kk => v (ix2 b kk) * w (ix2 j kk)) := by
  unfold maxStep
  refine (maximumf_apply acc _ (ix2 b j)).trans ?_
  refine congrArg (max (acc (ix2 b j))) ?_
  refine (Ideal.multiReduction_maximumf_single (k0_pay4 v w) 0xFF800000#32 reduces_S256x128x128_S256x128 (.inl rfl) rfl (ix2 b j)).trans ?_
  refine congrArg (fun f => (Finset.univ : Finset (Fin 128)).fold max cmax f) (funext fun kk => ?_)
  exact (congrArg (k0_pay4 v w) (lift_eq b j kk)).trans (prod_apply v w b j kk)

/-- The step fed with column chunk `q` of the two blocks (columns `128q, …, 128q+127`) is one step of the running
    maximum of the row product over chunks of 128 positions. -/
theorem maxStep_cols (x0 : Vec Ideal S256x1024 .f32) (x1 : Vec Ideal S128x1024 .f32) (q o : ℕ) (ho : o = q * 128) (hq : q < 8)
    (inb0 : ∀ a, (![0, o] : Fin 2 → ℕ) a + S256x128.size a ≤ S256x1024.size a)
    (inb1 : ∀ a, (![0, o] : Fin 2 → ℕ) a + S128x128.size a ≤ S128x1024.size a)
    (acc : Vec Ideal S256x128 .f32) (b : Fin 256) (j : Fin 128) :
    maxStep (View.ld x0 (Rect.unit ![0, o] S256x128.size inb0)) (View.ld x1 (Rect.unit ![0, o] S128x128.size inb1)) acc (ix2 b j)
      = max (acc (ix2 b j)) (ChunkFold.chunkMax cmax (rowProd x0 x1 b j) 128 q) := by
  subst ho
  rw [maxStep_apply]
  refine congrArg (max _) ?_
  unfold ChunkFold.chunkMax
  refine congrArg (fun f => (Finset.univ : Finset (Fin 128)).fold max cmax f) (funext fun kk => ?_)
  have h : q * 128 + kk.val < 1024 := by have := kk.isLt; omega
  rw [ld_cols x0 (q * 128) inb0 b kk h, ld_cols x1 (q * 128) inb1 j kk h]
  unfold rowProd; rw [dif_pos h]

/-- The running maximum after the eight chunks, at (b, j). -/
theorem maxAcc_apply (x0 : Vec Ideal S256x1024 .f32) (x1 : Vec Ideal S128x1024 .f32) (b : Fin 256) (j : Fin 128) :
    maxAcc x0 x1 (ix2 b j) = ChunkFold.runMax cmax (rowProd x0 x1 b j) 128 8 := by
  unfold maxAcc
  rw [maxStep_cols x0 x1 7 896 rfl (by decide),
    maxStep_cols x0 x1 6 768 rfl (by decide),
    maxStep_cols x0 x1 5 640 rfl (by decide),
    maxStep_cols x0 x1 4 512 rfl (by decide),
    maxStep_cols x0 x1 3 384 rfl (by decide),
    maxStep_cols x0 x1 2 256 rfl (by decide),
    maxStep_cols x0 x1 1 128 rfl (by decide),
    maxStep_cols x0 x1 0 0 rfl (by decide)]
  rfl

/-- One step of the running minimum at (b, j): the running value there merged with the chunk's minimum of
    v[b,kk]·w[j,kk] over its 128 positions, folded from the constant. -/
theorem minStep_apply (v : Vec Ideal S256x128 .f32) (w : Vec Ideal S128x128 .f32) (acc : Vec Ideal S256x128 .f32)
    (b : Fin 256) (j : Fin 128) :
    minStep v w acc (ix2 b j)
      = min (acc (ix2 b j)) ((Finset.univ : Finset (Fin 128)).fold min cmin fun kk => v (ix2 b kk) * w (ix2 j kk)) := by
  unfold minStep
  refine (minimumf_apply acc _ (ix2 b j)).trans ?_
  refine congrArg (min (acc (ix2 b j))) ?_
  refine (multiReduction_minimumf_single (k0_pay4 v w) 0x7F800000#32 reduces_S256x128x128_S256x128 (.inl rfl) rfl (ix2 b j)).trans ?_
  refine congrArg (fun f => (Finset.univ : Finset (Fin 128)).fold min cmin f) (funext fun kk => ?_)
  exact (congrArg (k0_pay4 v w) (lift_eq b j kk)).trans (prod_apply v w b j kk)

/-- The step fed with column chunk `q` of the two blocks (columns `128q, …, 128q+127`) is one step of the running
    minimum of the row product over chunks of 128 positions. -/
theorem minStep_cols (x0 : Vec Ideal S256x1024 .f32) (x1 : Vec Ideal S128x1024 .f32) (q o : ℕ) (ho : o = q * 128) (hq : q < 8)
    (inb0 : ∀ a, (![0, o] : Fin 2 → ℕ) a + S256x128.size a ≤ S256x1024.size a)
    (inb1 : ∀ a, (![0, o] : Fin 2 → ℕ) a + S128x128.size a ≤ S128x1024.size a)
    (acc : Vec Ideal S256x128 .f32) (b : Fin 256) (j : Fin 128) :
    minStep (View.ld x0 (Rect.unit ![0, o] S256x128.size inb0)) (View.ld x1 (Rect.unit ![0, o] S128x128.size inb1)) acc (ix2 b j)
      = min (acc (ix2 b j)) (ChunkFold.chunkMin cmin (rowProd x0 x1 b j) 128 q) := by
  subst ho
  rw [minStep_apply]
  refine congrArg (min _) ?_
  unfold ChunkFold.chunkMin
  refine congrArg (fun f => (Finset.univ : Finset (Fin 128)).fold min cmin f) (funext fun kk => ?_)
  have h : q * 128 + kk.val < 1024 := by have := kk.isLt; omega
  rw [ld_cols x0 (q * 128) inb0 b kk h, ld_cols x1 (q * 128) inb1 j kk h]
  unfold rowProd; rw [dif_pos h]

/-- The running minimum after the eight chunks, at (b, j). -/
theorem minAcc_apply (x0 : Vec Ideal S256x1024 .f32) (x1 : Vec Ideal S128x1024 .f32) (b : Fin 256) (j : Fin 128) :
    minAcc x0 x1 (ix2 b j) = ChunkFold.runMin cmin (rowProd x0 x1 b j) 128 8 := by
  unfold minAcc
  rw [minStep_cols x0 x1 7 896 rfl (by decide),
    minStep_cols x0 x1 6 768 rfl (by decide),
    minStep_cols x0 x1 5 640 rfl (by decide),
    minStep_cols x0 x1 4 512 rfl (by decide),
    minStep_cols x0 x1 3 384 rfl (by decide),
    minStep_cols x0 x1 2 256 rfl (by decide),
    minStep_cols x0 x1 1 128 rfl (by decide),
    minStep_cols x0 x1 0 0 rfl (by decide)]
  rfl

end Cert.KernelIdeal.Body

end
-- ==== Proof.BodyAtIndex.lean ====
/-
  The body's output block at an index: the specified entry of the block's rows.

  At (b, j) the output block holds (running maximum + running minimum) + the bias row's entry j; the running extrema
  after eight chunks of 128 positions are the extrema over all 1024 positions of row b of the x block times row j of the
  w block.
-/
import proofs.«180714_j60730837565842_1_alg».proof.Proof.StepAtIndex

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Cert.Spec

/-- Eight chunks of 128 positions are the 1024 positions of the row: the running maximum is the row's maximum. -/
theorem runMax_rowProd (x0 : Vec Ideal S256x1024 .f32) (x1 : Vec Ideal S128x1024 .f32) (b : Fin 256) (j : Fin 128) :
    ChunkFold.runMax cmax (rowProd x0 x1 b j) 128 8
      = (Finset.univ : Finset (Fin 1024)).fold max cmax (fun k => x0 (ix2 b k) * x1 (ix2 j k)) := by
  refine (ChunkFold.runMax_eq_fold_of_eq cmax (rowProd x0 x1 b j) 128 8 1024 rfl).trans ?_
  refine congrArg (fun f => (Finset.univ : Finset (Fin 1024)).fold max cmax f) (funext fun k => ?_)
  unfold rowProd; rw [dif_pos k.isLt]

/-- … and the running minimum the row's minimum. -/
theorem runMin_rowProd (x0 : Vec Ideal S256x1024 .f32) (x1 : Vec Ideal S128x1024 .f32) (b : Fin 256) (j : Fin 128) :
    ChunkFold.runMin cmin (rowProd x0 x1 b j) 128 8
      = (Finset.univ : Finset (Fin 1024)).fold min cmin (fun k => x0 (ix2 b k) * x1 (ix2 j k)) := by
  refine (ChunkFold.runMin_eq_fold_of_eq cmin (rowProd x0 x1 b j) 128 8 1024 rfl).trans ?_
  refine congrArg (fun f => (Finset.univ : Finset (Fin 1024)).fold min cmin f) (funext fun k => ?_)
  unfold rowProd; rw [dif_pos k.isLt]

/-- THE OUTPUT BLOCK AT (b, j): the specified entry from row b of the x block, row j of the w block and entry j of the
    bias row. -/
theorem body_apply (x0 : Vec Ideal S256x1024 .f32) (x1 : Vec Ideal S128x1024 .f32) (x2 : Vec Ideal S1x128 .f32)
    (b : Fin 256) (j : Fin 128) :
    k0_pay1 (maxAcc x0 x1) (minAcc x0 x1) x2 (ix2 b j)
      = outRow (fun k => x0 (ix2 b k)) (fun k => x1 (ix2 j k)) (x2 (ix2 (0 : Fin 1) j)) := by
  unfold k0_pay1 outRow
  refine (addf_apply _ _ (ix2 b j)).trans ?_
  refine congrArg₂ (· + ·) ?_ ?_
  · refine (addf_apply _ _ (ix2 b j)).trans ?_
    exact congrArg₂ (· + ·) ((maxAcc_apply x0 x1 b j).trans (runMax_rowProd x0 x1 b j))
      ((minAcc_apply x0 x1 b j).trans (runMin_rowProd x0 x1 b j))
  · exact (broadcastTo_1b_ab_apply _ broadcasts_S1x128_S256x128 b j).trans
      (congrFun (shapeCast_self x2 shapeCasts_S1x128_S1x128) _)

end Cert.KernelIdeal.Body

end
-- ==== Proof.Blocks.lean ====
/-
  From blocks to the whole array.

  Grid step t (of four) is handed all of x, rows 128t … 128t+127 of the weight and entries 128t … 128t+127 of the bias
  (as one row of the bias reshaped to [1, 512]), and writes back columns 128t … 128t+127 of the result. So entry (b, j) of
  what step t writes back is the specified entry (b, 128t + j) of the whole arrays; the four column blocks tile the
  result, which therefore ends holding the specified function.
-/
import proofs.«180714_j60730837565842_1_alg».proof.Proof.Gen.KernelIdeal.Value
import proofs.«180714_j60730837565842_1_alg».proof.Proof.BodyAtIndex
import Idealize.ShloMosaic.Lib.StableHlo.Run
import Idealize.ShloMosaic.Lib.Pipeline.Value
import Idealize.ShloMosaic.Lib.ValueLayout

set_option maxRecDepth 16384

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The four index maps over the grid: x is always block (0,0); the weight's block row, the bias's block column and the
    result's block column are the step's number. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem t_lt (t : Fin cfg0.N) : t.val < 4 := lt_of_lt_of_eq t.isLt N_0

/-- The bias as the region finds it: the argument reshaped to one row. -/
theorem V_bias (c : Dev nD) :
    (V m c main_v0 : S1x512.Idx → EReal) = shapeCast S1x512 (m ((c : Thread nD τ).loc main_arg2)) shapeCasts_S512_S1x512 := by
  dsimp only [Gen.V, Gen.hostOps0]; after_results; rfl

/-- The x block at any step is x itself. -/
theorem xblk_apply (c : Dev nD) (t : Fin cfg0.N) (b : Fin 256) (k : Fin 1024) :
    (iblk m c 0 t : Vec Ideal S256x1024 .f32) (ix2 b k)
      = (m ((c : Thread nD τ).loc main_arg0) : S256x1024.Idx → EReal) (ix2 b k) := by
  obtain ⟨h00, h01, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 256 + 1 * b.val = b.val; rw [h00]; omega
  | ⟨1, _⟩ => show win0_0.index t (1 : Fin 2) * 1024 + 1 * k.val = k.val; rw [h01]; omega

/-- Row j of the weight block at step t is row 128t + j of the weight. -/
theorem wblk_apply (c : Dev nD) (t : Fin cfg0.N) (j : Fin 128) (k : Fin 1024) (n : Fin 512) (hn : n.val = 128 * t.val + j.val) :
    (iblk m c 1 t : Vec Ideal S128x1024 .f32) (ix2 j k)
      = (m ((c : Thread nD τ).loc main_arg1) : S512x1024.Idx → EReal) (ix2 n k) := by
  obtain ⟨-, -, h10, h11, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 128 + 1 * j.val = n.val; rw [h10, hn]; omega
  | ⟨1, _⟩ => show win0_1.index t (1 : Fin 2) * 1024 + 1 * k.val = k.val; rw [h11]; omega

/-- Entry j of the bias row block at step t is entry 128t + j of the bias. -/
theorem bblk_apply (c : Dev nD) (t : Fin cfg0.N) (j : Fin 128) (n : Fin 512) (hn : n.val = 128 * t.val + j.val) :
    (iblk m c 2 t : Vec Ideal S1x128 .f32) (ix2 (0 : Fin 1) j)
      = (m ((c : Thread nD τ).loc main_arg2) : S512.Idx → EReal) (ix1 n) := by
  obtain ⟨-, -, -, -, h20, h21, -⟩ := idx_facts t
  unfold iblk
  rw [View.read_apply]
  show V m c main_v0 _ = _
  rw [V_bias]
  refine Eq.trans (congrArg _ (?_ : _ = ix2 (0 : Fin 1) n)) (shapeCast_a_1a_apply _ shapeCasts_S512_S1x512 (0 : Fin 1) n)
  refine funext fun a => Fin.ext ?_
  match a with
  | ⟨0, _⟩ => show win0_2.index t (0 : Fin 2) * 1 + 1 * 0 = 0; rw [h20]
  | ⟨1, _⟩ => show win0_2.index t (1 : Fin 2) * 128 + 1 * j.val = n.val; rw [h21, hn]; omega

/-- What a write-back takes from the output's staging buffer is the buffer itself, coordinate by coordinate. -/
theorem cut_apply {α : Type} (t : Fin cfg0.N) (X : S256x128.Idx → α) (b : Fin 256) (j : Fin 128) :
    (cfg0.win 3).cut (grid0.coords t) X (ix2 b j) = X (ix2 b j) := by
  show X ((cfg0.win 3).xinj (grid0.coords t) (ix2 b j)) = X (ix2 b j)
  refine congrArg X (funext fun a => Fin.ext ?_)
  match a with
  | ⟨0, _⟩ => rfl
  | ⟨1, _⟩ => rfl

/-- Entry (b, j) of what step t writes back is the specified entry (b, 128t + j) of the whole arrays. -/
theorem flushed_at (c : Dev nD) (t : Fin cfg0.N) (y : S256x128.Idx) :
    (cfg0.win 3).cut (grid0.coords t)
        (k0_pay1 (maxAcc (iblk m c 0 t) (iblk m c 1 t)) (minAcc (iblk m c 0 t) (iblk m c 1 t)) (iblk m c 2 t)) y
      = ((cfg0.win 3).blk t).view.read (Elt Ideal) (G (m ((c : Thread nD τ).loc main_arg0)) (m ((c : Thread nD τ).loc main_arg1)) (m ((c : Thread nD τ).loc main_arg2))) y := by
  obtain ⟨b, j, rfl⟩ : ∃ (b : Fin 256) (j : Fin 128), y = ix2 b j := ⟨y 0, y 1, eq_ix2 y⟩
  obtain ⟨-, -, -, -, -, -, h30, h31⟩ := idx_facts t
  have ht := t_lt t
  have hj := j.isLt
  refine (cut_apply t _ b j).trans ?_
  refine (body_apply (iblk m c 0 t) (iblk m c 1 t) (iblk m c 2 t) b j).trans ?_
  have hemb : ((cfg0.win 3).blk t).view.emb (ix2 b j) = ix2 b (⟨128 * t.val + j.val, by omega⟩ : Fin 512) :=
    funext fun a => Fin.ext (match a with
      | ⟨0, _⟩ => by show win0_3.index t (0 : Fin 2) * 256 + 1 * b.val = b.val; rw [h30]; omega
      | ⟨1, _⟩ => by show win0_3.index t (1 : Fin 2) * 128 + 1 * j.val = 128 * t.val + j.val; rw [h31]; omega)
  rw [View.read_apply]
  show _ = (G (m ((c : Thread nD τ).loc main_arg0)) (m ((c : Thread nD τ).loc main_arg1)) (m ((c : Thread nD τ).loc main_arg2))) (((cfg0.win 3).blk t).view.emb (ix2 b j))
  rw [hemb, G_ix2]
  exact congr (congr (congrArg outRow (funext fun k => xblk_apply m c t b k))
    (funext fun k => wblk_apply m c t j k _ rfl)) (bblk_apply m c t j _ rfl)

/-- WHAT STEP t WRITES BACK is block t of the specified function of the arguments. -/
theorem flushed_eq (c : Dev nD) (t : Fin cfg0.N) :
    (dats m 0 c).flushed 3 t = ((cfg0.win 3).blk t).view.read (Elt Ideal) (G (m ((c : Thread nD τ).loc main_arg0)) (m ((c : Thread nD τ).loc main_arg1)) (m ((c : Thread nD τ).loc main_arg2))) := by
  rw [Value.flushed3_A, Body.out_eq]
  funext y
  exact flushed_at m c t y

/-- An index of the result lies in step t's block iff each coordinate lies in the block's range on its axis. -/
theorem mem_blk (t : Fin cfg0.N) (i : S256x512.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v1).slice (win0_3.rect t)).set ↔ _
  rw [View.set_slice_whole, Rect.mem_set_unit]
  exact Iff.rfl

/-- The four column blocks tile the result: column n is in the block of step n / 128. -/
theorem cover (i : S256x512.Idx) : ∃ t : Fin cfg0.N, (cfg0.win 3).flush t = true ∧ i ∈ ((cfg0.win 3).blk t).view.set := by
  have hi0 : (i 0).val < 256 := (i 0).isLt
  have hi1 : (i 1).val < 512 := (i 1).isLt
  have hN : cfg0.N = 4 := N_0
  refine ⟨⟨(i 1).val / 128, by rw [hN]; omega⟩, flush0_3 _, ?_⟩
  obtain ⟨-, -, -, -, -, -, h30, h31⟩ := idx_facts ⟨(i 1).val / 128, by rw [hN]; omega⟩
  rw [mem_blk]
  intro a
  match a with
  | ⟨0, _⟩ =>
    show win0_3.index _ (0 : Fin 2) * 256 ≤ (i 0).val ∧ (i 0).val < win0_3.index _ (0 : Fin 2) * 256 + 256
    rw [h30]; omega
  | ⟨1, _⟩ =>
    show win0_3.index _ (1 : Fin 2) * 128 ≤ (i 1).val ∧ (i 1).val < win0_3.index _ (1 : Fin 2) * 128 + 128
    rw [h31]; show (i 1).val / 128 * 128 ≤ (i 1).val ∧ (i 1).val < (i 1).val / 128 * 128 + 128; omega

/-- THE RESULT ARRAY after the run is the specified function of the argument arrays. -/
theorem final (c : Dev nD) : (dats m 0 c).arrAt 3 cfg0.N = (G (m ((c : Thread nD τ).loc main_arg0)) (m ((c : Thread nD τ).loc main_arg1)) (m ((c : Thread nD τ).loc main_arg2))) :=
  (dats m 0 c).arrAt_eq_of_cover 3 (G (m ((c : Thread nD τ).loc main_arg0)) (m ((c : Thread nD τ).loc main_arg1)) (m ((c : Thread nD τ).loc main_arg2))) (fun t _ => flushed_eq m c t) (cover)

/-- The kernel's run, read: it terminates with the result array at the specified function of the arguments and the
    arguments unchanged. -/
theorem run : θ_run defs (onTc (τ := τ) (main (F := Ideal))) ⟨m, fun _ => 0, ρ⟩ fun r => ∀ c : Dev nD,
      r.2.mem ((c : Thread nD τ).loc main_v1) = (G (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefIsSpec.lean ====
/-
  The reference's result is the specified function.

  The reference broadcasts x along a new last axis and the transpose of the weight along a new first axis, multiplies —
  the product array at (b, k, n) is x[b,k] · w[n,k] —, reduces the middle axis by maximum and by minimum from the two
  initial values, adds the two and adds the bias broadcast down the rows.
-/
import proofs.«180714_j60730837565842_1_alg».proof.Proof.Gen.ReferenceIdeal.Read
import proofs.«180714_j60730837565842_1_alg».proof.Proof.Spec
import Idealize.ShloMosaic.PureOps.Ideal.Laws
import Idealize.ShloMosaic.Lib.ValueIdx

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Spec

/-- The middle axis of a [256, 1024, 512] array reduces to [256, 512]. -/
theorem reduces_mid : S256x1024x512.Reduces [1] S256x512 := by decide

/-- The index of the product array that reduces to (b, n) at position `k` of the middle axis is (b, k, n). -/
theorem lift_mid (b : Fin 256) (n : Fin 512) (k : Fin 1024) : reduces_mid.lift (ix2 b n) k = ix3 b k n :=
  funext fun a => Fin.ext (match a with | ⟨0, _⟩ => rfl | ⟨1, _⟩ => rfl | ⟨2, _⟩ => rfl)

/-- The product array at (b, k, n): x[b,k] · w[n,k] (the weight read through its transpose). -/
theorem prod_apply (x0 : (⟨S256x1024, .f32⟩ : BufTy).Contents (Elt Ideal)) (x1 : (⟨S512x1024, .f32⟩ : BufTy).Contents (Elt Ideal)) (b : Fin 256) (k : Fin 1024) (n : Fin 512) :
    val_main_v5 (F := Ideal) x0 x1 (ix3 b k n) = x0 (ix2 b k) * x1 (ix2 n k) := by
  have e0 : idx_main_v1 (idx_main_v3 (ix3 b k n)) = ix2 b k :=
    funext fun a => Fin.ext (match a with | ⟨0, _⟩ => rfl | ⟨1, _⟩ => rfl)
  have e1 : idx_main_v0 (idx_main_v2 (idx_main_v4 (ix3 b k n))) = ix2 n k :=
    funext fun a => Fin.ext (match a with | ⟨0, _⟩ => rfl | ⟨1, _⟩ => rfl)
  rw [val_main_v5_apply, val_main_v3_apply, val_main_v1_apply, val_main_v4_apply, val_main_v2_apply, val_main_v0_apply, e0, e1]
  rfl

/-- The host's max-reduce over the middle axis at (b, n): the fold of `max` from the initial value over k of x[b,k]·w[n,k]. -/
theorem max_apply (x0 : (⟨S256x1024, .f32⟩ : BufTy).Contents (Elt Ideal)) (x1 : (⟨S512x1024, .f32⟩ : BufTy).Contents (Elt Ideal)) (b : Fin 256) (n : Fin 512) :
    val_main_v6 (F := Ideal) x0 x1 (ix2 b n)
      = (Finset.univ : Finset (Fin 1024)).fold max cmax (fun k => x0 (ix2 b k) * x1 (ix2 n k)) := by
  unfold val_main_v6
  refine (Host.reduce_eq_fold_single (FloatOps.maximumf (F := Ideal) (φ := .f32)) (val_main_v5 (F := Ideal) x0 x1) (val_main_cst (F := Ideal))
    reducesTo_S256x1024x512_S256x512_d1 reduces_mid h_S_ (ix2 b n)).trans ?_
  refine congrArg (fun f => (Finset.univ : Finset (Fin 1024)).fold max cmax f) (funext fun k => ?_)
  exact (congrArg (val_main_v5 (F := Ideal) x0 x1) (lift_mid b n k)).trans (prod_apply x0 x1 b k n)

/-- The host's min-reduce over the middle axis at (b, n): the fold of `min` from the initial value over k of x[b,k]·w[n,k]. -/
theorem min_apply (x0 : (⟨S256x1024, .f32⟩ : BufTy).Contents (Elt Ideal)) (x1 : (⟨S512x1024, .f32⟩ : BufTy).Contents (Elt Ideal)) (b : Fin 256) (n : Fin 512) :
    val_main_v7 (F := Ideal) x0 x1 (ix2 b n)
      = (Finset.univ : Finset (Fin 1024)).fold min cmin (fun k => x0 (ix2 b k) * x1 (ix2 n k)) := by
  unfold val_main_v7
  refine (Host.reduce_eq_fold_single (FloatOps.minimumf (F := Ideal) (φ := .f32)) (val_main_v5 (F := Ideal) x0 x1) (val_main_cst_0 (F := Ideal))
    reducesTo_S256x1024x512_S256x512_d1 reduces_mid h_S_ (ix2 b n)).trans ?_
  refine congrArg (fun f => (Finset.univ : Finset (Fin 1024)).fold min cmin f) (funext fun k => ?_)
  exact (congrArg (val_main_v5 (F := Ideal) x0 x1) (lift_mid b n k)).trans (prod_apply x0 x1 b k n)

/-- THE REFERENCE IS THE SPECIFIED FUNCTION of its three arguments. -/
theorem ref_eq_G (x0 : (⟨S256x1024, .f32⟩ : BufTy).Contents (Elt Ideal)) (x1 : (⟨S512x1024, .f32⟩ : BufTy).Contents (Elt Ideal)) (x2 : (⟨S512, .f32⟩ : BufTy).Contents (Elt Ideal)) :
    val_main_v11 (F := Ideal) x0 x1 x2 = G x0 x1 x2 := by
  funext i
  obtain ⟨b, n, rfl⟩ : ∃ (b : Fin 256) (n : Fin 512), i = ix2 b n := ⟨i 0, i 1, eq_ix2 i⟩
  have e : idx_main_v9 (idx_main_v10 (ix2 b n)) = ix1 n :=
    funext fun a => Fin.ext (match a with | ⟨0, _⟩ => rfl)
  rw [G_ix2, val_main_v11_apply, val_main_v8_apply, max_apply, min_apply, val_main_v10_apply, val_main_v9_apply, e]
  rfl

end Cert.ReferenceIdeal.RefValue

end
-- ==== Proof.lean ====
/-
  A max-plus-min linear layer: out[b, n] = max_k x[b,k]·w[n,k] + min_k x[b,k]·w[n,k] + bias[n], for x : [256, 1024],
  w : [512, 1024], bias : [512].

  The reference forms the whole product array x[b,k]·w[n,k], reduces its middle axis once by maximum (from the value of
  the word 0xFF800000) and once by minimum (from the value of the word 0x7F800000), adds the two and adds the bias. The
  kernel handles the result in four column blocks of 128; for each it keeps a running maximum and a running minimum,
  started at the same two values, and merges into them the maximum and the minimum of each of eight chunks of 128
  reduction positions, each chunk's extremum again folded from the same value; then it adds the two and the bias.

  On the extended reals max and min are associative, commutative and idempotent, so the running extremum after eight
  chunks is the extremum over all 1024 positions, whatever the starting value: an element of a linear order is determined
  by its upper (lower) bounds, and both sides have those of the starting value and of every product. The products, the
  two additions and their grouping are the same on both sides, so the two results agree at every index, with no use of
  the inputs' finiteness. The kernel's idealization rewrote nothing, so there is nothing to preserve.

  The modules: Spec (the function), LibChunkFold (extrema accumulated chunk by chunk), BodyTerm (one grid step's output
  block as one term of its input blocks), StepAtIndex and BodyAtIndex (that term at an index), Blocks (the four blocks
  tile the result), RefIsSpec (the reference's term is the function); here, the five claims.
-/
import proofs.«180714_j60730837565842_1_alg».proof.Defs
import proofs.«180714_j60730837565842_1_alg».proof.Proof.Gen.Kernel
import proofs.«180714_j60730837565842_1_alg».proof.Proof.Gen.Kernel.Skeleton
import proofs.«180714_j60730837565842_1_alg».proof.Proof.Gen.Kernel.Launch
import proofs.«180714_j60730837565842_1_alg».proof.Proof.Gen.Kernel.Points
import proofs.«180714_j60730837565842_1_alg».proof.Proof.Gen.Kernel.Frame
import proofs.«180714_j60730837565842_1_alg».proof.Proof.Gen.KernelIdeal
import proofs.«180714_j60730837565842_1_alg».proof.Proof.Gen.KernelIdeal.Skeleton
import proofs.«180714_j60730837565842_1_alg».proof.Proof.Gen.KernelIdeal.Launch
import proofs.«180714_j60730837565842_1_alg».proof.Proof.Gen.KernelIdeal.Points
import proofs.«180714_j60730837565842_1_alg».proof.Proof.Gen.KernelIdeal.Frame
import proofs.«180714_j60730837565842_1_alg».proof.Proof.Gen.ReferenceIdeal
import proofs.«180714_j60730837565842_1_alg».proof.Proof.Gen.Pre_finite_inputs
import proofs.«180714_j60730837565842_1_alg».proof.Proof.Gen.KernelIdeal.Value
import proofs.«180714_j60730837565842_1_alg».proof.Proof.Gen.ReferenceIdeal.Run
import proofs.«180714_j60730837565842_1_alg».proof.Proof.Gen.ReferenceIdeal.Read
import proofs.«180714_j60730837565842_1_alg».proof.Proof.Blocks
import proofs.«180714_j60730837565842_1_alg».proof.Proof.RefIsSpec
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specified function of those arguments in their
    result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v11_eq _ _ _).trans (Cert.ReferenceIdeal.RefValue.ref_eq_G _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
